-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048x8192 : Shape := ⟨3, ![4, 2048, 8192]⟩
abbrev S4x1x8192 : Shape := ⟨3, ![4, 1, 8192]⟩
abbrev S4x8192x2048 : Shape := ⟨3, ![4, 8192, 2048]⟩
abbrev S4x1x2048 : Shape := ⟨3, ![4, 1, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048x8192 : S_.BroadcastsInDim S4x2048x8192 (![] : Fin 0 → Fin S4x2048x8192.rank)
  reducesTo_S4x2048x8192_S_d0_1_2 : S4x2048x8192.ReducesTo [0, 1, 2] S_
  bcast_S_S4x1x8192 : S_.BroadcastsInDim S4x1x8192 (![] : Fin 0 → Fin S4x1x8192.rank)
  reducesTo_S4x1x8192_S_d0_1_2 : S4x1x8192.ReducesTo [0, 1, 2] S_
  bcast_S_S4x8192x2048 : S_.BroadcastsInDim S4x8192x2048 (![] : Fin 0 → Fin S4x8192x2048.rank)
  reducesTo_S4x8192x2048_S_d0_1_2 : S4x8192x2048.ReducesTo [0, 1, 2] S_
  bcast_S_S4x1x2048 : S_.BroadcastsInDim S4x1x2048 (![] : Fin 0 → Fin S4x1x2048.rank)
  reducesTo_S4x1x2048_S_d0_1_2 : S4x1x2048.ReducesTo [0, 1, 2] S_

variable [Facts]

def fn_part1 {F : FTy → Type} [FloatOps F] (main_arg4 : FVec F S4x1x2048 .f32) (main_v13 : IVec S_ 1) (main_v16 : IVec S4x8192x2048 1) : IVec S_ 1 :=
  let main_c_5 : IVec S_ 1 := constantI S_ 1 1#1
  let main_v17 : IVec S_ 1 := (fun x v => Host.reduce IntOp.andi x v reducesTo_S4x8192x2048_S_d0_1_2 h_S_) main_v16 main_c_5
  let main_v18 : IVec S_ 1 := andi main_v13 main_v17
  let main_v19 : FVec F S4x1x2048 .f32 := Host.absf main_arg4
  let main_cst_6 : FVec F S_ .f32 := constant S_ .f32 0x7F800000#32
  let main_v20 : FVec F S4x1x2048 .f32 := broadcastInDim S4x1x2048 ![] bcast_S_S4x1x2048 main_cst_6
  let main_v21 : IVec S4x1x2048 1 := cmpf .olt main_v19 main_v20
  let main_c_7 : IVec S_ 1 := constantI S_ 1 1#1
  let main_v22 : IVec S_ 1 := (fun x v => Host.reduce IntOp.andi x v reducesTo_S4x1x2048_S_d0_1_2 h_S_) main_v21 main_c_7
  let main_v23 : IVec S_ 1 := andi main_v18 main_v22
  main_v23

def fn {F : FTy → Type} [FloatOps F] (main_arg0 : FVec F S4x4096x2048 .f32) (main_arg1 : FVec F S4x2048x8192 .f32) (main_arg2 : FVec F S4x1x8192 .f32) (main_arg3 : FVec F S4x8192x2048 .f32) (main_arg4 : FVec F S4x1x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048x8192 .f32 := Host.absf main_arg1
  let main_cst_0 : FVec F S_ .f32 := constant S_ .f32 0x7F800000#32
  let main_v5 : FVec F S4x2048x8192 .f32 := broadcastInDim S4x2048x8192 ![] bcast_S_S4x2048x8192 main_cst_0
  let main_v6 : IVec S4x2048x8192 1 := cmpf .olt main_v4 main_v5
  let main_c_1 : IVec S_ 1 := constantI S_ 1 1#1
  let main_v7 : IVec S_ 1 := (fun x v => Host.reduce IntOp.andi x v reducesTo_S4x2048x8192_S_d0_1_2 h_S_) main_v6 main_c_1
  let main_v8 : IVec S_ 1 := andi main_v3 main_v7
  let main_v9 : FVec F S4x1x8192 .f32 := Host.absf main_arg2
  let main_cst_2 : FVec F S_ .f32 := constant S_ .f32 0x7F800000#32
  let main_v10 : FVec F S4x1x8192 .f32 := broadcastInDim S4x1x8192 ![] bcast_S_S4x1x8192 main_cst_2
  let main_v11 : IVec S4x1x8192 1 := cmpf .olt main_v9 main_v10
  let main_c_3 : IVec S_ 1 := constantI S_ 1 1#1
  let main_v12 : IVec S_ 1 := (fun x v => Host.reduce IntOp.andi x v reducesTo_S4x1x8192_S_d0_1_2 h_S_) main_v11 main_c_3
  let main_v13 : IVec S_ 1 := andi main_v8 main_v12
  let main_v14 : FVec F S4x8192x2048 .f32 := Host.absf main_arg3
  let main_cst_4 : FVec F S_ .f32 := constant S_ .f32 0x7F800000#32
  let main_v15 : FVec F S4x8192x2048 .f32 := broadcastInDim S4x8192x2048 ![] bcast_S_S4x8192x2048 main_cst_4
  let main_v16 : IVec S4x8192x2048 1 := cmpf .olt main_v14 main_v15
  fn_part1 (F := F) main_arg4 main_v13 main_v16
-- ==== Kernel.lean ====
abbrev S4x4096x2048 : Shape := ⟨3, ![4, 4096, 2048]⟩
abbrev S4x2048x8192 : Shape := ⟨3, ![4, 2048, 8192]⟩
abbrev S4x1x8192 : Shape := ⟨3, ![4, 1, 8192]⟩
abbrev S4x8192x2048 : Shape := ⟨3, ![4, 8192, 2048]⟩
abbrev S4x1x2048 : Shape := ⟨3, ![4, 1, 2048]⟩
abbrev S1x512x2048 : Shape := ⟨3, ![1, 512, 2048]⟩
abbrev S1x2048x512 : Shape := ⟨3, ![1, 2048, 512]⟩
abbrev S1x1x512 : Shape := ⟨3, ![1, 1, 512]⟩
abbrev S1x1x2048 : Shape := ⟨3, ![1, 1, 2048]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩
abbrev S1x2048 : Shape := ⟨2, ![1, 2048]⟩

abbrev nBuf : Space → Nat
  | .hbm => 8
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x2048x8192, .f32⟩
  | .hbm, ⟨2, _⟩ => ⟨S4x1x8192, .f32⟩
  | .hbm, ⟨3, _⟩ => ⟨S4x8192x2048, .f32⟩
  | .hbm, ⟨4, _⟩ => ⟨S4x1x2048, .f32⟩
  | .hbm, ⟨5, _⟩ => ⟨S4x2048x8192, .bf16⟩
  | .hbm, ⟨6, _⟩ => ⟨S4x8192x2048, .bf16⟩
  | .hbm, ⟨7, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x2048, .bf16⟩
  | .local _ .vmem, ⟨7, _⟩ => ⟨S1x512x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | .local _ .vmem, ⟨12, _⟩ => ⟨S512x2048, .f32⟩
  | .local _ .vmem, ⟨13, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v22 : BitVec 1 := Scalar.cmpi .eq arg2 c15_i32
  let v23 : BitVec 32 := Scalar.extui v22
  let c0_i32_17 : BitVec 32 := 0#32
  let v24 : BitVec 1 := Scalar.cmpi .ne v23 c0_i32_17
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  packedbf16_S512x2048_S512x2048_0_0 : (Rect.unit (s := S512x2048) ![0, 0] S512x2048.size inb_S512x2048_S512x2048_0_0).PackedRows (EltTy.packing .bf16)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  shapeCasts_S512x2048_S1x512x2048 : S512x2048.ShapeCasts S1x512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S4x2048x8192.size a
  hwx0_1 : ∀ i : grid0.Coords, EltTy.bits .bf16 = 32 ∨ (Rect.block (s := S4x2048x8192) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x8192.size a
  hwx0_2 : ∀ i : grid0.Coords, EltTy.bits .f32 = 32 ∨ (Rect.block (s := S4x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x8192x2048.size a
  hwx0_3 : ∀ i : grid0.Coords, EltTy.bits .bf16 = 32 ∨ (Rect.block (s := S4x8192x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x2048.size a
  hwx0_4 : ∀ i : grid0.Coords, EltTy.bits .f32 = 32 ∨ (Rect.block (s := S4x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S4x4096x2048.size a
  hwx0_5 : ∀ i : grid0.Coords, EltTy.bits .f32 = 32 ∨ (Rect.block (s := S4x4096x2048) S1x512x2048.size (cc0_transform_5 i) (hinb0_5 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S4x2048x8192 : Shape := ⟨3, ![4, 2048, 8192]⟩
abbrev S4x1x8192 : Shape := ⟨3, ![4, 1, 8192]⟩
abbrev S4x8192x2048 : Shape := ⟨3, ![4, 8192, 2048]⟩
abbrev S4x1x2048 : Shape := ⟨3, ![4, 1, 2048]⟩
abbrev S4x4096x8192 : Shape := ⟨3, ![4, 4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x8192, .f32⟩
  | .hbm, ⟨2, _⟩ => ⟨S4x1x8192, .f32⟩
  | .hbm, ⟨3, _⟩ => ⟨S4x8192x2048, .f32⟩
  | .hbm, ⟨4, _⟩ => ⟨S4x1x2048, .f32⟩
  | .hbm, ⟨5, _⟩ => ⟨S4x4096x8192, .f32⟩
  | .hbm, ⟨6, _⟩ => ⟨S4x4096x8192, .f32⟩
  | .hbm, ⟨7, _⟩ => ⟨S4x4096x8192, .f32⟩
  | .hbm, ⟨8, _⟩ => ⟨S_, .f32⟩
  | .hbm, ⟨9, _⟩ => ⟨S4x4096x8192, .f32⟩
  | .hbm, ⟨10, _⟩ => ⟨S4x4096x8192, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S4x1x8192_S4x4096x8192_0_1_2 : S4x1x8192.BroadcastsInDim S4x4096x8192 (![0, 1, 2] : Fin 3 → Fin S4x4096x8192.rank)
  bcast_S_S4x4096x8192 : S_.BroadcastsInDim S4x4096x8192 (![] : Fin 0 → Fin S4x4096x8192.rank)
  bcast_S4x1x2048_S4x4096x2048_0_1_2 : S4x1x2048.BroadcastsInDim S4x4096x2048 (![0, 1, 2] : Fin 3 → Fin S4x4096x2048.rank)
  dot_S4x4096x2048_S4x2048x8192_S4x4096x8192_2_1_1_2_0_0_wf : DotDims.WF S4x4096x2048 S4x2048x8192 S4x4096x8192 [2] [1] [1] [2] [0] [0]
  dot_S4x4096x8192_S4x8192x2048_S4x4096x2048_2_1_1_2_0_0_wf : DotDims.WF S4x4096x8192 S4x8192x2048 S4x4096x2048 [2] [1] [1] [2] [0] [0]

variable [Facts₀]

def dot_S4x4096x2048_S4x2048x8192_S4x4096x8192_2_1_1_2_0_0 : DotDims S4x4096x2048 S4x2048x8192 S4x4096x8192 where
  lhsContracting := [2]
  rhsContracting := [1]
  lhsNonContracting := [1]
  rhsNonContracting := [2]
  lhsBatch := [0]
  rhsBatch := [0]
  wf := dot_S4x4096x2048_S4x2048x8192_S4x4096x8192_2_1_1_2_0_0_wf
def dot_S4x4096x8192_S4x8192x2048_S4x4096x2048_2_1_1_2_0_0 : DotDims S4x4096x8192 S4x8192x2048 S4x4096x2048 where
  lhsContracting := [2]
  rhsContracting := [1]
  lhsNonContracting := [1]
  rhsNonContracting := [2]
  lhsBatch := [0]
  rhsBatch := [0]
  wf := dot_S4x4096x8192_S4x8192x2048_S4x4096x2048_2_1_1_2_0_0_wf

class Facts : Prop extends Facts₀ where

variable [Facts]
-- ==== Proof.Pieces.lean ====
import proofs.«128964_j2121713845122_2_alg».proof.Proof.Gen.KernelIdeal.Frame
import Idealize.ShloMosaic.Lib.Pipeline.Value
import Idealize.ShloMosaic.Lib.Tactic

/-!
# What one grid point leaves in the two carried buffers and in the output block

The body keeps two buffers across the sixteen points of a row tile: the running sum of the second product and the row
tile of `x`. A point is of one of three kinds. At the first point of a tile the body zeroes the sum, copies the
row tile of `x`, and adds the first hidden tile's share. At a middle point it adds that point's share to the sum it
found. At the last point it does the same and then writes the sum plus the second bias to the output block. Each
lemma below reads one buffer after one kind of point as the body's arithmetic (`k0_pay1` … `k0_pay4`) applied to
the blocks the point loaded and to what the buffers held before; they hold for any float values.
-/

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Middle point: the running sum becomes the sum found plus this point's share. -/
theorem sum_middle (c : Dev nD) (i : grid0.Coords) (arg3 : Memref sig .tc .vmem S1x512x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (arg10 : Memref sig .tc .vmem S512x2048 .bf16) (harg10 : arg10.IsWhole) (hc0 : ¬cond0_0 i) (hc1 : ¬cond0_1 i) (x0 : Vec F S1x512x2048 .f32) (x1 : Vec F S1x2048x512 .bf16) (x2 : Vec F S1x1x512 .f32) (x3 : Vec F S1x512x2048 .bf16) (x4 : Vec F S1x1x2048 .f32) (xs0 : Vec F S512x2048 .f32) (xs1 : Vec F S512x2048 .bf16) :
    sout0_B_0 c i arg3 harg3 arg4 harg4 arg5 harg5 arg6 harg6 arg7 harg7 arg8 harg8 arg9 harg9 arg10 harg10 hc0 hc1 x0 x1 x2 x3 x4 xs0 xs1 = k0_pay3 xs1 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz2]
  simp only [View.readAt_eq_ld, harg3.read_unread, harg4.read_unread, harg5.read_unread, harg6.read_unread, harg7.read_unread, harg9.read_unread, harg10.read_unread, View.ld_unit_zero (S := S512x2048) hz2, View.ld_unit_zero (S := S1x2048x512) hz3, View.ld_unit_zero (S := S1x1x512) hz3, View.ld_unit_zero (S := S1x512x2048) hz3, View.ld_unit_zero (S := S1x1x2048) hz3]

/-- Last point: the running sum likewise. -/
theorem sum_last (c : Dev nD) (i : grid0.Coords) (arg3 : Memref sig .tc .vmem S1x512x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (arg10 : Memref sig .tc .vmem S512x2048 .bf16) (harg10 : arg10.IsWhole) (hc0 : ¬cond0_0 i) (hc1 : cond0_1 i) (x0 : Vec F S1x512x2048 .f32) (x1 : Vec F S1x2048x512 .bf16) (x2 : Vec F S1x1x512 .f32) (x3 : Vec F S1x512x2048 .bf16) (x4 : Vec F S1x1x2048 .f32) (xs0 : Vec F S512x2048 .f32) (xs1 : Vec F S512x2048 .bf16) :
    sout0_C_0 c i arg3 harg3 arg4 harg4 arg5 harg5 arg6 harg6 arg7 harg7 arg8 harg8 arg9 harg9 arg10 harg10 hc0 hc1 x0 x1 x2 x3 x4 xs0 xs1 = k0_pay3 xs1 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg4.read_unread, harg5.read_unread, harg6.read_unread, harg7.read_unread, harg9.read_unread, harg10.read_unread, View.ld_unit_zero (S := S512x2048) hz2, View.ld_unit_zero (S := S1x2048x512) hz3, View.ld_unit_zero (S := S1x1x512) hz3, View.ld_unit_zero (S := S1x512x2048) hz3, View.ld_unit_zero (S := S1x1x2048) hz3]

/-- First point: the sum is zeroed and the row tile of `x` copied before the first share is added, so the sum ends at
    zero plus the first share, computed from the copy. -/
theorem sum_first (c : Dev nD) (i : grid0.Coords) (arg3 : Memref sig .tc .vmem S1x512x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (arg10 : Memref sig .tc .vmem S512x2048 .bf16) (harg10 : arg10.IsWhole) (hc0 : cond0_0 i) (hc1 : ¬cond0_1 i) (x0 : Vec F S1x512x2048 .f32) (x1 : Vec F S1x2048x512 .bf16) (x2 : Vec F S1x1x512 .f32) (x3 : Vec F S1x512x2048 .bf16) (x4 : Vec F S1x1x2048 .f32) :
    sout0_A_0 c i arg3 harg3 arg4 harg4 arg5 harg5 arg6 harg6 arg7 harg7 arg8 harg8 arg9 harg9 arg10 harg10 hc0 hc1 x0 x1 x2 x3 x4 = k0_pay3 (k0_pay2 x0) x1 x2 x3 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x2048) hz2, View.readCov_unit_zero (S := S512x2048) _ hz2,
    View.readCov_unit_zero (S := S512x2048) _ hz2]
  simp only [View.readAt_eq_ld, harg3.read_unread, harg4.read_unread, harg5.read_unread, harg6.read_unread, harg7.read_unread, harg9.read_unread, harg10.read_unread, View.ld_unit_zero (S := S512x2048) hz2, View.ld_unit_zero (S := S1x2048x512) hz3, View.ld_unit_zero (S := S1x1x512) hz3, View.ld_unit_zero (S := S1x512x2048) hz3, View.ld_unit_zero (S := S1x1x2048) hz3]

/-- First point: the kept row tile is the copy of the `x` block. -/
theorem rows_first (c : Dev nD) (i : grid0.Coords) (arg3 : Memref sig .tc .vmem S1x512x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (arg10 : Memref sig .tc .vmem S512x2048 .bf16) (harg10 : arg10.IsWhole) (hc0 : cond0_0 i) (hc1 : ¬cond0_1 i) (x0 : Vec F S1x512x2048 .f32) (x1 : Vec F S1x2048x512 .bf16) (x2 : Vec F S1x1x512 .f32) (x3 : Vec F S1x512x2048 .bf16) (x4 : Vec F S1x1x2048 .f32) :
    sout0_A_1 c i arg3 harg3 arg4 harg4 arg5 harg5 arg6 harg6 arg7 harg7 arg8 harg8 arg9 harg9 arg10 harg10 hc0 hc1 x0 x1 x2 x3 x4 = k0_pay2 x0 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz2]
  simp only [View.readAt_eq_ld, harg3.read_unread, harg4.read_unread, harg5.read_unread, harg6.read_unread, harg7.read_unread, harg9.read_unread, harg10.read_unread, View.ld_unit_zero (S := S512x2048) hz2, View.ld_unit_zero (S := S1x2048x512) hz3, View.ld_unit_zero (S := S1x1x512) hz3, View.ld_unit_zero (S := S1x512x2048) hz3, View.ld_unit_zero (S := S1x1x2048) hz3]

/-- Last point: the output block is the finished sum plus the second bias. -/
theorem block_last (c : Dev nD) (i : grid0.Coords) (arg3 : Memref sig .tc .vmem S1x512x2048 .f32) (harg3 : arg3.IsWhole) (arg4 : Memref sig .tc .vmem S1x2048x512 .bf16) (harg4 : arg4.IsWhole) (arg5 : Memref sig .tc .vmem S1x1x512 .f32) (harg5 : arg5.IsWhole) (arg6 : Memref sig .tc .vmem S1x512x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (arg10 : Memref sig .tc .vmem S512x2048 .bf16) (harg10 : arg10.IsWhole) (hc0 : ¬cond0_0 i) (hc1 : cond0_1 i) (x0 : Vec F S1x512x2048 .f32) (x1 : Vec F S1x2048x512 .bf16) (x2 : Vec F S1x1x512 .f32) (x3 : Vec F S1x512x2048 .bf16) (x4 : Vec F S1x1x2048 .f32) (xs0 : Vec F S512x2048 .f32) (xs1 : Vec F S512x2048 .bf16) :
    out0_C_5 c i arg3 harg3 arg4 harg4 arg5 harg5 arg6 harg6 arg7 harg7 arg8 harg8 arg9 harg9 arg10 harg10 hc0 hc1 x0 x1 x2 x3 x4 xs0 xs1 = k0_pay4 (k0_pay3 xs1 x1 x2 x3 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3, View.readCov_unit_zero (S := S512x2048) _ hz2]
  simp only [View.readAt_eq_ld, harg3.read_unread, harg4.read_unread, harg5.read_unread, harg6.read_unread, harg7.read_unread, harg9.read_unread, harg10.read_unread, View.ld_unit_zero (S := S512x2048) hz2, View.ld_unit_zero (S := S1x2048x512) hz3, View.ld_unit_zero (S := S1x1x512) hz3, View.ld_unit_zero (S := S1x512x2048) hz3, View.ld_unit_zero (S := S1x1x2048) hz3]

end Cert.KernelIdeal.Pieces

end
-- ==== Proof.Payload.lean ====
import proofs.«128964_j2121713845122_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The body's arithmetic at one entry, over the extended reals

The body has four pieces of arithmetic: the zero tile; the copy of the row tile of `x`; the step that adds one hidden
tile's share to the running sum; and the sum plus the second bias. Each is read here at one entry of its result. The
changes of float format are the identity on the extended reals, and a matrix product into a zero accumulator is the
plain sum of the products along the contracted axis.
-/

noncomputable section

open scoped BigOperators
open Idealize.ShloMosaic Idealize.ShloMosaic.ValueIdx

namespace Cert.KernelIdeal.Payload

open Cert.KernelIdeal Cert.KernelIdeal.Gen

theorem first_lhs0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
theorem first_lhs1 (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem first_rhs0 (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q
theorem first_rhs1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The first product: a row tile times a tile of 512 columns of the first weights, entry by entry the sum over the 2048 model columns. -/
theorem rows_times_first_weights (a : FVec Ideal S512x2048 .bf16) (b : FVec Ideal S2048x512 .bf16) (p : Fin 512) (q : Fin 512) :
    matmul dot_S512x2048_S2048x512_S512x512_1_0_0_1_n_n none a b (constant (F := Ideal) S512x512 .f32 0x00000000#32) (ix2 p q)
      = ∑ k : Fin 2048, a (ix2 p k) * b (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k :=
    funext fun ax => Fin.ext (by
      match ax with
      | ⟨0, _⟩ => exact first_lhs0 _ _
      | ⟨1, _⟩ => exact (first_lhs1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q :=
    funext fun ax => Fin.ext (by
      match ax with
      | ⟨0, _⟩ => exact (first_rhs0 _ _).trans hk
      | ⟨1, _⟩ => exact first_rhs1 _ _)
  rw [el, er]

theorem second_lhs0 (i : S512x2048.Idx) (q : dot_S512x512_S512x2048_S512x2048_1_0_0_1_n_n.contr.Idx) : (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl
theorem second_lhs1 (i : S512x2048.Idx) (q : dot_S512x512_S512x2048_S512x2048_1_0_0_1_n_n.contr.Idx) : (dot_S512x512_S512x2048_S512x2048_1_0_0_1_n_n.lhsIdx i q 1).val = (q ⟨0, by decide⟩).val :=
  dot_S512x512_S512x2048_S512x2048_1_0_0_1_n_n.lhsIdx_val_of_single rfl i q
theorem second_rhs0 (i : S512x2048.Idx) (q : dot_S512x512_S512x2048_S512x2048_1_0_0_1_n_n.contr.Idx) : (dot_S512x512_S512x2048_S512x2048_1_0_0_1_n_n.rhsIdx i q 0).val = (q ⟨0, by decide⟩).val :=
  dot_S512x512_S512x2048_S512x2048_1_0_0_1_n_n.rhsIdx_val_of_single rfl i q
theorem second_rhs1 (i : S512x2048.Idx) (q : dot_S512x512_S512x2048_S512x2048_1_0_0_1_n_n.contr.Idx) : (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The second product: the hidden tile times the matching 512 rows of the second weights, entry by entry the sum over the tile's 512 hidden units. -/
theorem hidden_times_second_weights (a : FVec Ideal S512x512 .bf16) (b : FVec Ideal S512x2048 .bf16) (p : Fin 512) (q : Fin 2048) :
    matmul dot_S512x512_S512x2048_S512x2048_1_0_0_1_n_n none a b (constant (F := Ideal) S512x2048 .f32 0x00000000#32) (ix2 p q)
      = ∑ k : Fin 512, a (ix2 p k) * b (ix2 k q) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k :=
    funext fun ax => Fin.ext (by
      match ax with
      | ⟨0, _⟩ => exact second_lhs0 _ _
      | ⟨1, _⟩ => exact (second_lhs1 _ _).trans hk)
  have er : dot_S512x512_S512x2048_S512x2048_1_0_0_1_n_n.rhsIdx (ix2 p q) ((contrEquiv1 dot_S512x512_S512x2048_S512x2048_1_0_0_1_n_n 512 rfl rfl).symm k) = ix2 k q :=
    funext fun ax => Fin.ext (by
      match ax with
      | ⟨0, _⟩ => exact (second_rhs0 _ _).trans hk
      | ⟨1, _⟩ => exact second_rhs1 _ _)
  rw [el, er]

/-- The tile the running sum is reset to holds the float zero everywhere. -/
theorem zero_tile_apply (p : Fin 512) (d : Fin 2048) :
    k0_pay1 (F := Ideal) (ix2 p d) = Ideal.ofBits .f32 0x00000000#32 := by
  unfold k0_pay1
  simp only [shapeCast_self]
  rfl

/-- The kept copy of the row tile is the `x` block itself (dropping the block's leading unit axis; rounding to the
    narrower format is the identity here). -/
theorem rows_copy_apply (x0 : Vec Ideal S1x512x2048 .f32) (p : Fin 512) (q : Fin 2048) :
    k0_pay2 x0 (ix2 p q) = x0 (ix3 (0 : Fin 1) p q) := by
  unfold k0_pay2
  simp only [shapeCast_self]
  exact shapeCast_1ab_ab_apply x0 _ p q

/-- One step of the running sum at entry `(p, d)`: what was there, plus the sum over the tile's 512 hidden units of
    `relu (row p of the kept tile · column k of the first-weight block + first bias at k)` times the second-weight
    block at `(k, d)`. -/
theorem step_apply (rows : Vec Ideal S512x2048 .bf16) (w1 : Vec Ideal S1x2048x512 .bf16) (b1 : Vec Ideal S1x1x512 .f32)
    (w2 : Vec Ideal S1x512x2048 .bf16) (sum : Vec Ideal S512x2048 .f32) (p : Fin 512) (d : Fin 2048) :
    k0_pay3 rows w1 b1 w2 sum (ix2 p d)
      = sum (ix2 p d) + ∑ k : Fin 512,
          max ((∑ j : Fin 2048, rows (ix2 p j) * w1 (ix3 (0 : Fin 1) j k)) + b1 (ix3 (0 : Fin 1) (0 : Fin 1) k))
              (Ideal.ofBits .f32 0x00000000#32)
            * w2 (ix3 (0 : Fin 1) k d) := by
  unfold k0_pay3
  simp only [shapeCast_self]
  refine congrArg (sum (ix2 p d) + ·) ?_
  refine (hidden_times_second_weights _ _ p d).trans ?_
  refine Finset.sum_congr rfl fun k _ => ?_
  refine congrArg₂ (· * ·) ?_ (shapeCast_1ab_ab_apply w2 _ k d)
  refine congrArg₂ max (congrArg₂ (· + ·) ?_ ?_) rfl
  · refine (rows_times_first_weights _ _ p k).trans ?_
    exact Finset.sum_congr rfl fun j _ => congrArg (rows (ix2 p j) * ·) (shapeCast_1ab_ab_apply w1 _ j k)
  · refine (broadcastTo_1b_ab_apply _ _ p k).trans ?_
    exact shapeCast_1ab_ab_apply b1 _ (0 : Fin 1) k

/-- The output block at entry `(0, p, d)`: the finished sum there plus the second bias at `d`. -/
theorem finish_apply (sum : Vec Ideal S512x2048 .f32) (b2 : Vec Ideal S1x1x2048 .f32) (u : Fin 1) (p : Fin 512)
    (d : Fin 2048) :
    k0_pay4 sum b2 (ix3 u p d) = sum (ix2 p d) + b2 (ix3 (0 : Fin 1) (0 : Fin 1) d) := by
  unfold k0_pay4
  refine (shapeCast_ab_1ab_apply _ _ u p d).trans ?_
  refine congrArg (sum (ix2 p d) + ·) ?_
  refine (broadcastTo_1b_ab_apply _ _ p d).trans ?_
  exact shapeCast_1ab_ab_apply b2 _ (0 : Fin 1) d

end Cert.KernelIdeal.Payload

end
-- ==== Proof.Spec.lean ====
import Idealize.ShloMosaic.PureOps.Ideal
import Idealize.ShloMosaic.Lib.ValueIdx

/-!
# The expert feed-forward layer as one function of its five arrays

For expert `e`, token row `r` and output column `d`,

  `out e r d = (∑ h, relu (∑ j, x e r j * w1 e j h + b1 e 0 h) * w2 e h d) + b2 e 0 d`

over the extended reals, with `relu y = max y 0`. The hidden axis has 8192 = 16 · 512 entries. This module states
the function (`ffn`), the same sum taken tile by tile of 512 hidden units in increasing order (`acc`), and that
after sixteen tiles the two agree (`acc_sixteen`): regrouping a finite sum needs only that addition on the
extended reals is commutative and associative, so no finiteness of the entries is used.
-/

noncomputable section

open scoped BigOperators

namespace Cert.Spec

open Idealize.ShloMosaic Idealize.ShloMosaic.ValueIdx

/-- The activations `x`: expert, token row, model column. -/
abbrev SX : Shape := ⟨3, ![4, 4096, 2048]⟩
/-- The first weights: expert, model column, hidden unit. -/
abbrev SW1 : Shape := ⟨3, ![4, 2048, 8192]⟩
/-- The first bias: expert, one row, hidden unit. -/
abbrev SB1 : Shape := ⟨3, ![4, 1, 8192]⟩
/-- The second weights: expert, hidden unit, model column. -/
abbrev SW2 : Shape := ⟨3, ![4, 8192, 2048]⟩
/-- The second bias: expert, one row, model column. -/
abbrev SB2 : Shape := ⟨3, ![4, 1, 2048]⟩

/-- The float zero both programs compare against and start their sums from. -/
abbrev zeroF : EReal := Ideal.ofBits .f32 0x00000000#32

variable (X : SX.Idx → EReal) (W1 : SW1.Idx → EReal) (B1 : SB1.Idx → EReal) (W2 : SW2.Idx → EReal)
  (B2 : SB2.Idx → EReal)

/-- The hidden activation of row `r` of expert `e` at hidden unit `h`: `relu (x · w1 + b1)`. -/
def hid (e : Fin 4) (r : Fin 4096) (h : Fin 8192) : EReal :=
  max ((∑ j : Fin 2048, X (ix3 e r j) * W1 (ix3 e j h)) + B1 (ix3 e (0 : Fin 1) h)) zeroF

/-- One summand of the second product. -/
def term (e : Fin 4) (r : Fin 4096) (d : Fin 2048) (h : Fin 8192) : EReal :=
  hid X W1 B1 e r h * W2 (ix3 e h d)

/-- The whole layer at an index of the result. -/
def ffn : SX.Idx → EReal := fun i =>
  (∑ h : Fin 8192, term X W1 B1 W2 (i 0) (i 1) (i 2) h) + B2 (ix3 (i 0) (0 : Fin 1) (i 2))

/-- Hidden unit `k` of tile `b` (tiles are counted modulo sixteen, so that the function is total). -/
def unit (b : ℕ) (k : Fin 512) : Fin 8192 :=
  ⟨b % 16 * 512 + k.val, by have := Nat.mod_lt b (show 0 < 16 by decide); have := k.isLt; omega⟩

/-- Tile `b`'s share of the second product: its 512 summands. -/
def tile (e : Fin 4) (r : Fin 4096) (d : Fin 2048) (b : ℕ) : EReal :=
  ∑ k : Fin 512, term X W1 B1 W2 e r d (unit b k)

/-- The first `n` tiles' shares, added in increasing order. -/
def acc (e : Fin 4) (r : Fin 4096) (d : Fin 2048) (n : ℕ) : EReal :=
  ∑ b ∈ Finset.range n, tile X W1 B1 W2 e r d b

theorem acc_one (e : Fin 4) (r : Fin 4096) (d : Fin 2048) : acc X W1 B1 W2 e r d 1 = tile X W1 B1 W2 e r d 0 :=
  Finset.sum_range_one _

theorem acc_succ (e : Fin 4) (r : Fin 4096) (d : Fin 2048) (n : ℕ) :
    acc X W1 B1 W2 e r d (n + 1) = acc X W1 B1 W2 e r d n + tile X W1 B1 W2 e r d n :=
  Finset.sum_range_succ _ n

/-- A tile only depends on its number modulo sixteen. -/
theorem tile_congr (e : Fin 4) (r : Fin 4096) (d : Fin 2048) {a b : ℕ} (h : a % 16 = b % 16) :
    tile X W1 B1 W2 e r d a = tile X W1 B1 W2 e r d b := by
  unfold tile unit
  simp only [h]

/-- The hidden units are sixteen tiles of 512: a unit is (tile, place in the tile). -/
def tiles : Fin 16 × Fin 512 ≃ Fin 8192 where
  toFun p := ⟨p.1.val * 512 + p.2.val, by have := p.1.isLt; have := p.2.isLt; omega⟩
  invFun h := (⟨h.val / 512, by have := h.isLt; omega⟩, ⟨h.val % 512, Nat.mod_lt _ (by decide)⟩)
  left_inv p := by
    have h1 := p.1.isLt; have h2 := p.2.isLt
    refine Prod.ext (Fin.ext ?_) (Fin.ext ?_)
    · show (p.1.val * 512 + p.2.val) / 512 = p.1.val; omega
    · show (p.1.val * 512 + p.2.val) % 512 = p.2.val; omega
  right_inv h := by
    refine Fin.ext ?_
    show h.val / 512 * 512 + h.val % 512 = h.val; omega

theorem unit_eq_tiles (b : Fin 16) (k : Fin 512) : unit b.val k = tiles (b, k) := by
  refine Fin.ext ?_
  show b.val % 16 * 512 + k.val = b.val * 512 + k.val
  rw [Nat.mod_eq_of_lt b.isLt]

/-- All sixteen tiles, added in order, are the whole sum over the hidden axis. -/
theorem acc_sixteen (e : Fin 4) (r : Fin 4096) (d : Fin 2048) :
    acc X W1 B1 W2 e r d 16 = ∑ h : Fin 8192, term X W1 B1 W2 e r d h := by
  unfold acc
  rw [← Fin.sum_univ_eq_sum_range (fun b => tile X W1 B1 W2 e r d b) 16, ← Equiv.sum_comp tiles,
    Fintype.sum_prod_type]
  refine Finset.sum_congr rfl fun b _ => ?_
  unfold tile
  refine Finset.sum_congr rfl fun k _ => ?_
  rw [unit_eq_tiles]

end Cert.Spec

end
-- ==== Proof.Blocks.lean ====
import proofs.«128964_j2121713845122_2_alg».proof.Proof.Gen.KernelIdeal.Frame
import proofs.«128964_j2121713845122_2_alg».proof.Proof.Spec
import Idealize.ShloMosaic.Lib.Pipeline.Value
import Idealize.ShloMosaic.Lib.StableHlo.Run
import Idealize.ShloMosaic.Lib.ValueIdx

/-!
# Where each block sits in its array

The grid has 4 · 8 · 16 = 512 points, numbered row-major: point `n` is expert `n / 128`, row tile `n / 16 % 8`,
hidden tile `n % 16`. At point `n` the six windows hold: rows `512 · (n / 16 % 8) …` of expert `n / 128` of `x`
(and of the result); columns `512 · (n % 16) …` of that expert's first weights and first bias; rows `512 · (n % 16) …`
of its second weights; and its second bias. Each lemma reads one entry of one block as an entry of the whole array.
The two weight arrays reach the kernel through a change of float format, which is the identity on the extended
reals.
-/

noncomputable section

open Idealize.ShloMosaic Idealize.ShloMosaic.TcCoe Idealize.SL.Sem Idealize.ShloMosaic.ValueIdx

namespace Cert.KernelIdeal.Blocks

open Cert.KernelIdeal Cert.KernelIdeal.Gen

/-- The expert of grid point `n`. -/
def expert (n : ℕ) : Fin 4 := ⟨n / 128 % 4, Nat.mod_lt _ (by decide)⟩

/-- Row `p` of the row tile of grid point `n`, as a row of the whole array. -/
def row (n : ℕ) (p : Fin 512) : Fin 4096 :=
  ⟨n / 16 % 8 * 512 + p.val, by have := Nat.mod_lt (n / 16) (show 0 < 8 by decide); have := p.isLt; omega⟩

/-- The printed index maps at every point of the grid, decided once. -/
theorem index_facts : ∀ t : Fin cfg0.N,
    (win0_0.index t (0 : Fin 3) = t.val / 128 ∧ win0_0.index t (1 : Fin 3) = t.val / 16 % 8 ∧ win0_0.index t (2 : Fin 3) = 0)
    ∧ (win0_1.index t (0 : Fin 3) = t.val / 128 ∧ win0_1.index t (1 : Fin 3) = 0 ∧ win0_1.index t (2 : Fin 3) = t.val % 16)
    ∧ (win0_2.index t (0 : Fin 3) = t.val / 128 ∧ win0_2.index t (1 : Fin 3) = 0 ∧ win0_2.index t (2 : Fin 3) = t.val % 16)
    ∧ (win0_3.index t (0 : Fin 3) = t.val / 128 ∧ win0_3.index t (1 : Fin 3) = t.val % 16 ∧ win0_3.index t (2 : Fin 3) = 0)
    ∧ (win0_4.index t (0 : Fin 3) = t.val / 128 ∧ win0_4.index t (1 : Fin 3) = 0 ∧ win0_4.index t (2 : Fin 3) = 0)
    ∧ (win0_5.index t (0 : Fin 3) = t.val / 128 ∧ win0_5.index t (1 : Fin 3) = t.val / 16 % 8 ∧ win0_5.index t (2 : Fin 3) = 0) :=
  (by decide +kernel : ∀ t : Fin grid0.N, _)

variable {F : FTy → Type} [FloatOps F]
variable (m : (ℓ : Loc nD τ sig) → Buf (Elt F) ℓ)

/-- Entry `(p, q)` of the `x` block is row `p` of the point's row tile, column `q`, of the point's expert. -/
theorem x_block (c : Dev nD) (t : Fin cfg0.N) (p : Fin 512) (q : Fin 2048) :
    (iblk m c 0 t : Vec F S1x512x2048 .f32) (ix3 (0 : Fin 1) p q) = V m c main_arg0 (ix3 (expert t.val) (row t.val p) q) := by
  obtain ⟨⟨e0, e1, e2⟩, -⟩ := index_facts t
  have hN : t.val < 512 := lt_of_lt_of_eq t.isLt N_0
  unfold iblk
  rw [View.read_apply]
  show V m c main_arg0 _ = V m c main_arg0 _
  refine congrArg (V m c main_arg0) ?_
  funext a
  apply Fin.ext
  match a with
  | ⟨0, _⟩ => show win0_0.index t (0 : Fin 3) * 1 + 1 * 0 = t.val / 128 % 4; omega
  | ⟨1, _⟩ => show win0_0.index t (1 : Fin 3) * 512 + 1 * p.val = t.val / 16 % 8 * 512 + p.val; omega
  | ⟨2, _⟩ => show win0_0.index t (2 : Fin 3) * 2048 + 1 * q.val = q.val; omega

/-- Entry `(j, k)` of the first-weight block is row `j`, hidden unit `k` of the point's hidden tile. -/
theorem w1_block (c : Dev nD) (t : Fin cfg0.N) (j : Fin 2048) (k : Fin 512) :
    (iblk m c 1 t : Vec F S1x2048x512 .bf16) (ix3 (0 : Fin 1) j k) = V m c main_v0 (ix3 (expert t.val) j (Cert.Spec.unit t.val k)) := by
  obtain ⟨-, ⟨e0, e1, e2⟩, -⟩ := index_facts t
  have hN : t.val < 512 := lt_of_lt_of_eq t.isLt N_0
  unfold iblk
  rw [View.read_apply]
  show V m c main_v0 _ = V m c main_v0 _
  refine congrArg (V m c main_v0) ?_
  funext a
  apply Fin.ext
  match a with
  | ⟨0, _⟩ => show win0_1.index t (0 : Fin 3) * 1 + 1 * 0 = t.val / 128 % 4; omega
  | ⟨1, _⟩ => show win0_1.index t (1 : Fin 3) * 2048 + 1 * j.val = j.val; omega
  | ⟨2, _⟩ => show win0_1.index t (2 : Fin 3) * 512 + 1 * k.val = t.val % 16 * 512 + k.val; omega

/-- Entry `k` of the first-bias block is the bias of hidden unit `k` of the point's hidden tile. -/
theorem b1_block (c : Dev nD) (t : Fin cfg0.N) (k : Fin 512) :
    (iblk m c 2 t : Vec F S1x1x512 .f32) (ix3 (0 : Fin 1) (0 : Fin 1) k) = V m c main_arg2 (ix3 (expert t.val) (0 : Fin 1) (Cert.Spec.unit t.val k)) := by
  obtain ⟨-, -, ⟨e0, e1, e2⟩, -⟩ := index_facts t
  have hN : t.val < 512 := lt_of_lt_of_eq t.isLt N_0
  unfold iblk
  rw [View.read_apply]
  show V m c main_arg2 _ = V m c main_arg2 _
  refine congrArg (V m c main_arg2) ?_
  funext a
  apply Fin.ext
  match a with
  | ⟨0, _⟩ => show win0_2.index t (0 : Fin 3) * 1 + 1 * 0 = t.val / 128 % 4; omega
  | ⟨1, _⟩ => show win0_2.index t (1 : Fin 3) * 1 + 1 * 0 = 0; omega
  | ⟨2, _⟩ => show win0_2.index t (2 : Fin 3) * 512 + 1 * k.val = t.val % 16 * 512 + k.val; omega

/-- Entry `(k, d)` of the second-weight block is hidden unit `k` of the point's hidden tile, column `d`. -/
theorem w2_block (c : Dev nD) (t : Fin cfg0.N) (k : Fin 512) (d : Fin 2048) :
    (iblk m c 3 t : Vec F S1x512x2048 .bf16) (ix3 (0 : Fin 1) k d) = V m c main_v1 (ix3 (expert t.val) (Cert.Spec.unit t.val k) d) := by
  obtain ⟨-, -, -, ⟨e0, e1, e2⟩, -⟩ := index_facts t
  have hN : t.val < 512 := lt_of_lt_of_eq t.isLt N_0
  unfold iblk
  rw [View.read_apply]
  show V m c main_v1 _ = V m c main_v1 _
  refine congrArg (V m c main_v1) ?_
  funext a
  apply Fin.ext
  match a with
  | ⟨0, _⟩ => show win0_3.index t (0 : Fin 3) * 1 + 1 * 0 = t.val / 128 % 4; omega
  | ⟨1, _⟩ => show win0_3.index t (1 : Fin 3) * 512 + 1 * k.val = t.val % 16 * 512 + k.val; omega
  | ⟨2, _⟩ => show win0_3.index t (2 : Fin 3) * 2048 + 1 * d.val = d.val; omega

/-- Entry `d` of the second-bias block is the bias of column `d`. -/
theorem b2_block (c : Dev nD) (t : Fin cfg0.N) (d : Fin 2048) :
    (iblk m c 4 t : Vec F S1x1x2048 .f32) (ix3 (0 : Fin 1) (0 : Fin 1) d) = V m c main_arg4 (ix3 (expert t.val) (0 : Fin 1) d) := by
  obtain ⟨-, -, -, -, ⟨e0, e1, e2⟩, -⟩ := index_facts t
  have hN : t.val < 512 := lt_of_lt_of_eq t.isLt N_0
  unfold iblk
  rw [View.read_apply]
  show V m c main_arg4 _ = V m c main_arg4 _
  refine congrArg (V m c main_arg4) ?_
  funext a
  apply Fin.ext
  match a with
  | ⟨0, _⟩ => show win0_4.index t (0 : Fin 3) * 1 + 1 * 0 = t.val / 128 % 4; omega
  | ⟨1, _⟩ => show win0_4.index t (1 : Fin 3) * 1 + 1 * 0 = 0; omega
  | ⟨2, _⟩ => show win0_4.index t (2 : Fin 3) * 2048 + 1 * d.val = d.val; omega

end Cert.KernelIdeal.Blocks

end
-- ==== Proof.Running.lean ====
import proofs.«128964_j2121713845122_2_alg».proof.Proof.Gen.KernelIdeal.Frame
import proofs.«128964_j2121713845122_2_alg».proof.Proof.Pieces
import proofs.«128964_j2121713845122_2_alg».proof.Proof.Payload
import proofs.«128964_j2121713845122_2_alg».proof.Proof.Blocks
import proofs.«128964_j2121713845122_2_alg».proof.Proof.Spec

/-!
# What the two carried buffers hold after every grid point

Write `E`, `R p` for the expert and the rows of grid point `n`'s row tile. After point `n` the kept row tile holds
`x E (R p) q` at `(p, q)`, and the running sum holds at `(p, d)` the shares of hidden tiles `0 … n % 16` of
`out E (R p) d`, added in that order. This is proved by induction on the point: the first point of a row tile
establishes it from zero and a fresh copy of `x`; every other point keeps the row tile and adds its own hidden
tile's share. At the last point of a row tile all sixteen shares are in, so the block written to the result is the
layer function on those rows.
-/

noncomputable section

open scoped BigOperators
open Idealize.ShloMosaic Idealize.ShloMosaic.TcCoe Idealize.SL.Sem Idealize.ShloMosaic.ValueIdx

namespace Cert.KernelIdeal.Running

open Cert.KernelIdeal Cert.KernelIdeal.Gen Cert.KernelIdeal.Blocks

variable (m : (ℓ : Loc nD τ sig) → Buf (Elt Ideal) ℓ)

/-- The five arrays as the kernel's region finds them on core `c`. -/
abbrev X (c : Dev nD) : Cert.Spec.SX.Idx → EReal := V m c main_arg0
abbrev W1 (c : Dev nD) : Cert.Spec.SW1.Idx → EReal := V m c main_v0
abbrev B1 (c : Dev nD) : Cert.Spec.SB1.Idx → EReal := V m c main_arg2
abbrev W2 (c : Dev nD) : Cert.Spec.SW2.Idx → EReal := V m c main_v1
abbrev B2 (c : Dev nD) : Cert.Spec.SB2.Idx → EReal := V m c main_arg4

/-- The statement about the two buffers after point `n`. -/
def Holds (c : Dev nD) (n : ℕ) (rows : Vec Ideal S512x2048 .bf16) (sum : Vec Ideal S512x2048 .f32) : Prop :=
  (∀ (p : Fin 512) (q : Fin 2048), rows (ix2 p q) = X m c (ix3 (expert n) (row n p) q))
  ∧ ∀ (p : Fin 512) (d : Fin 2048),
      sum (ix2 p d) = Cert.Spec.acc (X m c) (W1 m c) (B1 m c) (W2 m c) (expert n) (row n p) d (n % 16 + 1)

/-- One step at point `t`, from any kept row tile that holds the point's rows of `x`: the sum grows by the share of
    the point's hidden tile. -/
theorem step_at (c : Dev nD) (t : Fin cfg0.N) (rows : Vec Ideal S512x2048 .bf16) (sum : Vec Ideal S512x2048 .f32)
    (hrows : ∀ (p : Fin 512) (q : Fin 2048), rows (ix2 p q) = X m c (ix3 (expert t.val) (row t.val p) q))
    (p : Fin 512) (d : Fin 2048) :
    k0_pay3 rows (iblk m c 1 t) (iblk m c 2 t) (iblk m c 3 t) sum (ix2 p d)
      = sum (ix2 p d) + Cert.Spec.tile (X m c) (W1 m c) (B1 m c) (W2 m c) (expert t.val) (row t.val p) d t.val := by
  refine (Payload.step_apply rows (iblk m c 1 t) (iblk m c 2 t) (iblk m c 3 t) sum p d).trans ?_
  refine congrArg (sum (ix2 p d) + ·) ?_
  unfold Cert.Spec.tile Cert.Spec.term Cert.Spec.hid
  refine Finset.sum_congr rfl fun k _ => ?_
  refine congrArg₂ (· * ·) (congrArg₂ max (congrArg₂ (· + ·) (Finset.sum_congr rfl fun j _ => ?_) ?_) rfl) ?_
  · exact congrArg₂ (· * ·) (hrows p j) (w1_block m c t j k)
  · exact b1_block m c t k
  · exact w2_block m c t k d

/-- The first point of a row tile establishes the statement. -/
theorem holds_first (c : Dev nD) (t : Fin cfg0.N) (h0 : t.val % 16 = 0) :
    Holds m c t.val (k0_pay2 (iblk m c 0 t))
      (k0_pay3 (k0_pay2 (iblk m c 0 t)) (iblk m c 1 t) (iblk m c 2 t) (iblk m c 3 t) (k0_pay1 (F := Ideal))) := by
  have hrows : ∀ (p : Fin 512) (q : Fin 2048),
      k0_pay2 (iblk m c 0 t) (ix2 p q) = X m c (ix3 (expert t.val) (row t.val p) q) := fun p q =>
    (Payload.rows_copy_apply (iblk m c 0 t) p q).trans (x_block m c t p q)
  refine ⟨hrows, fun p d => ?_⟩
  refine (step_at m c t (k0_pay2 (iblk m c 0 t)) (k0_pay1 (F := Ideal)) hrows p d).trans ?_
  have hz : (k0_pay1 (F := Ideal)) (ix2 p d) = 0 := (Payload.zero_tile_apply p d).trans Ideal.ofBits_zero_f32
  rw [hz, zero_add, h0]
  exact (Cert.Spec.tile_congr _ _ _ _ _ _ _ (by rw [h0])).trans (Cert.Spec.acc_one _ _ _ _ _ _ _).symm

/-- Every other point carries it on from the point before. -/
theorem holds_next (c : Dev nD) (t : Fin cfg0.N) (h0 : ¬t.val % 16 = 0) (rows : Vec Ideal S512x2048 .bf16)
    (sum : Vec Ideal S512x2048 .f32) (ih : Holds m c (t.val - 1) rows sum) :
    Holds m c t.val rows (k0_pay3 rows (iblk m c 1 t) (iblk m c 2 t) (iblk m c 3 t) sum) := by
  have hE : expert (t.val - 1) = expert t.val := Fin.ext (by show (t.val - 1) / 128 % 4 = t.val / 128 % 4; omega)
  have hR : ∀ p : Fin 512, row (t.val - 1) p = row t.val p := fun p =>
    Fin.ext (by show (t.val - 1) / 16 % 8 * 512 + p.val = t.val / 16 % 8 * 512 + p.val; omega)
  have hC : (t.val - 1) % 16 + 1 = t.val % 16 := by omega
  have hrows : ∀ (p : Fin 512) (q : Fin 2048), rows (ix2 p q) = X m c (ix3 (expert t.val) (row t.val p) q) :=
    fun p q => by rw [ih.1 p q, hE, hR]
  refine ⟨hrows, fun p d => ?_⟩
  refine (step_at m c t rows sum hrows p d).trans ?_
  rw [ih.2 p d, hE, hR, hC, Cert.Spec.acc_succ]
  exact congrArg (_ + ·) (Cert.Spec.tile_congr _ _ _ _ _ _ _ (by rw [Nat.mod_mod]))

/-- The statement transported along equalities of the two buffers' contents. -/
theorem holds_of_eq (c : Dev nD) (n : ℕ) (rows rows' : Vec Ideal S512x2048 .bf16) (sum sum' : Vec Ideal S512x2048 .f32)
    (hr : rows' = rows) (hs : sum' = sum) (h : Holds m c n rows sum) : Holds m c n rows' sum' := by
  subst hr hs; exact h

/-- After every point the two carried buffers hold what the statement says. -/
theorem holds (c : Dev nD) : ∀ (n : ℕ) (hn : n < cfg0.N),
    Holds m c n (outsAt0 m c n hn).2.2 (outsAt0 m c n hn).2.1
  | 0, hn => by
    have h0 : (⟨0, hn⟩ : Fin cfg0.N).val % 16 = 0 := rfl
    have h1 : ¬(⟨0, hn⟩ : Fin cfg0.N).val % 16 = 15 := by show ¬(0 % 16 = 15); decide
    have e2 : (outsAt0 m c 0 hn).2.2 = k0_pay2 (iblk m c 0 ⟨0, hn⟩) := by
      rw [outsAt0_A m c ⟨0, hn⟩ h0 h1]
      dsimp only
      exact Pieces.rows_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
    have e1 : (outsAt0 m c 0 hn).2.1 = k0_pay3 (k0_pay2 (iblk m c 0 ⟨0, hn⟩)) (iblk m c 1 ⟨0, hn⟩) (iblk m c 2 ⟨0, hn⟩) (iblk m c 3 ⟨0, hn⟩) (k0_pay1 (F := Ideal)) := by
      rw [outsAt0_A m c ⟨0, hn⟩ h0 h1]
      dsimp only
      exact Pieces.sum_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
    exact holds_of_eq m c _ _ _ _ _ e2 e1 (holds_first m c ⟨0, hn⟩ h0)
  | n + 1, hn => by
    have hN : n + 1 < 512 := lt_of_lt_of_eq hn N_0
    by_cases h0 : (n + 1) % 16 = 0
    · have h1 : ¬(n + 1) % 16 = 15 := by omega
      have e2 : (outsAt0 m c (n + 1) hn).2.2 = k0_pay2 (iblk m c 0 ⟨n + 1, hn⟩) := by
        rw [outsAt0_A m c ⟨n + 1, hn⟩ h0 h1]
        dsimp only
        exact Pieces.rows_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
      have e1 : (outsAt0 m c (n + 1) hn).2.1 = k0_pay3 (k0_pay2 (iblk m c 0 ⟨n + 1, hn⟩)) (iblk m c 1 ⟨n + 1, hn⟩) (iblk m c 2 ⟨n + 1, hn⟩) (iblk m c 3 ⟨n + 1, hn⟩) (k0_pay1 (F := Ideal)) := by
        rw [outsAt0_A m c ⟨n + 1, hn⟩ h0 h1]
        dsimp only
        exact Pieces.sum_first (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
      exact holds_of_eq m c _ _ _ _ _ e2 e1 (holds_first m c ⟨n + 1, hn⟩ h0)
    · have ih := holds c n (Nat.lt_of_succ_lt hn)
      by_cases h1 : (n + 1) % 16 = 15
      · have e2 : (outsAt0 m c (n + 1) hn).2.2 = (outsAt0 m c n (Nat.lt_of_succ_lt hn)).2.2 := by
          rw [outsAt0_C m c ⟨n + 1, hn⟩ h0 h1]
          rfl
        have e1 : (outsAt0 m c (n + 1) hn).2.1 = k0_pay3 (outsAt0 m c n (Nat.lt_of_succ_lt hn)).2.2 (iblk m c 1 ⟨n + 1, hn⟩) (iblk m c 2 ⟨n + 1, hn⟩) (iblk m c 3 ⟨n + 1, hn⟩) (outsAt0 m c n (Nat.lt_of_succ_lt hn)).2.1 := by
          rw [outsAt0_C m c ⟨n + 1, hn⟩ h0 h1]
          dsimp only
          exact Pieces.sum_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c n (Nat.lt_of_succ_lt hn)).2.1 (outsAt0 m c n (Nat.lt_of_succ_lt hn)).2.2
        exact holds_of_eq m c _ _ _ _ _ e2 e1 (holds_next m c ⟨n + 1, hn⟩ h0 _ _ ih)
      · have e2 : (outsAt0 m c (n + 1) hn).2.2 = (outsAt0 m c n (Nat.lt_of_succ_lt hn)).2.2 := by
          rw [outsAt0_B m c ⟨n + 1, hn⟩ h0 h1]
          rfl
        have e1 : (outsAt0 m c (n + 1) hn).2.1 = k0_pay3 (outsAt0 m c n (Nat.lt_of_succ_lt hn)).2.2 (iblk m c 1 ⟨n + 1, hn⟩) (iblk m c 2 ⟨n + 1, hn⟩) (iblk m c 3 ⟨n + 1, hn⟩) (outsAt0 m c n (Nat.lt_of_succ_lt hn)).2.1 := by
          rw [outsAt0_B m c ⟨n + 1, hn⟩ h0 h1]
          dsimp only
          exact Pieces.sum_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 m c n (Nat.lt_of_succ_lt hn)).2.1 (outsAt0 m c n (Nat.lt_of_succ_lt hn)).2.2
        exact holds_of_eq m c _ _ _ _ _ e2 e1 (holds_next m c ⟨n + 1, hn⟩ h0 _ _ ih)

/-- At the last point of a row tile the block written to the result is the layer function on the tile's rows. -/
theorem block_at_last (c : Dev nD) (t : Fin cfg0.N) (h1 : t.val % 16 = 15) (u : Fin 1) (p : Fin 512) (d : Fin 2048) :
    (outsAt0 m c t.val t.isLt).1 (ix3 u p d)
      = Cert.Spec.ffn (X m c) (W1 m c) (B1 m c) (W2 m c) (B2 m c) (ix3 (expert t.val) (row t.val p) d) := by
  have h0 : ¬t.val % 16 = 0 := by omega
  have es : (outsAt0 m c t.val t.isLt).2.1 = k0_pay3 (outsAt0 m c (t.val - 1) (Nat.lt_of_le_of_lt (Nat.sub_le _ _) t.isLt)).2.2 (iblk m c 1 t) (iblk m c 2 t) (iblk m c 3 t) (outsAt0 m c (t.val - 1) (Nat.lt_of_le_of_lt (Nat.sub_le _ _) t.isLt)).2.1 := by
    rw [outsAt0_C m c t h0 h1]
    dsimp only
    exact Pieces.sum_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  have eb : (outsAt0 m c t.val t.isLt).1 = k0_pay4 (k0_pay3 (outsAt0 m c (t.val - 1) (Nat.lt_of_le_of_lt (Nat.sub_le _ _) t.isLt)).2.2 (iblk m c 1 t) (iblk m c 2 t) (iblk m c 3 t) (outsAt0 m c (t.val - 1) (Nat.lt_of_le_of_lt (Nat.sub_le _ _) t.isLt)).2.1) (iblk m c 4 t) := by
    rw [outsAt0_C m c t h0 h1]
    dsimp only
    exact Pieces.block_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  have hs := (holds m c t.val t.isLt).2 p d
  rw [h1] at hs
  refine (congrFun (eb.trans (congrArg (k0_pay4 · (iblk m c 4 t)) es.symm)) _).trans
    ((Payload.finish_apply _ (iblk m c 4 t) u p d).trans ?_)
  exact congrArg₂ (· + ·) (hs.trans (Cert.Spec.acc_sixteen _ _ _ _ _ _ _)) (b2_block m c t d)

end Cert.KernelIdeal.Running

end
-- ==== Proof.KernelValue.lean ====
import proofs.«128964_j2121713845122_2_alg».proof.Proof.Gen.KernelIdeal.Value
import proofs.«128964_j2121713845122_2_alg».proof.Proof.Running
import Idealize.ShloMosaic.Lib.Pipeline.Value
import Idealize.ShloMosaic.Lib.StableHlo.Run

/-!
# The kernel's result array is the layer function

The result array is written only at the last point of each row tile, one block of 512 rows of one expert per write,
and these 4 · 8 blocks tile the array. Each written block is the layer function on its rows, so the array after the run
is the layer function of the five arrays as the kernel's region finds them; and these are the five arguments, the two
weight arrays having passed through a change of float format that is the identity on the extended reals.
-/

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Running

variable (m : (ℓ : Loc nD τ sig) → Buf (Elt Ideal) ℓ) (ρ : Dev nD → PrngReg)

/-- The layer function of the arrays as the region finds them. -/
abbrev found (c : Dev nD) : Buf (Elt Ideal) ((c : Thread nD τ).loc main_v2) :=
  Cert.Spec.ffn (X m c) (W1 m c) (B1 m c) (W2 m c) (B2 m c)

/-- What the last point of a row tile writes back is that tile's block of the layer function. -/
theorem flushed_eq (c : Dev nD) (t : Fin cfg0.N) (hf : (cfg0.win 5).flush t = true) :
    (dats m 0 c).flushed 5 t = ((cfg0.win 5).blk t).view.read (Elt Ideal) (found m c) := by
  have h1 : t.val % 16 = 15 := (flush0_5 t).mp hf
  obtain ⟨-, -, -, -, -, ⟨e0, e1, e2⟩⟩ := index_facts t
  have hN : t.val < 512 := lt_of_lt_of_eq t.isLt N_0
  rw [Value.flushed5]
  funext y
  obtain ⟨u, p, d, rfl⟩ : ∃ (u : Fin 1) (p : Fin 512) (d : Fin 2048), y = ix3 u p d := ⟨y 0, y 1, y 2, eq_ix3 y⟩
  show (outsAt0 m c t.val t.isLt).1 (ix3 u p d) = found m c (((cfg0.win 5).blk t).view.emb (ix3 u p d))
  refine (block_at_last m c t h1 u p d).trans ?_
  refine congrArg (found m c) ?_
  funext a
  apply Fin.ext
  have hu : u.val = 0 := by have := u.isLt; omega
  match a with
  | ⟨0, _⟩ => show t.val / 128 % 4 = win0_5.index t (0 : Fin 3) * 1 + 1 * u.val; omega
  | ⟨1, _⟩ => show t.val / 16 % 8 * 512 + p.val = win0_5.index t (1 : Fin 3) * 512 + 1 * p.val; omega
  | ⟨2, _⟩ => show d.val = win0_5.index t (2 : Fin 3) * 2048 + 1 * d.val; omega

/-- Row `r` of expert `e` lies in the block written at the last point of its row tile. -/
theorem mem_block (t : Fin cfg0.N) (i : S4x4096x2048.Idx)
    (ht : t.val = (i 0).val * 128 + (i 1).val / 512 * 16 + 15) : i ∈ ((cfg0.win 5).blk t).view.set := by
  obtain ⟨-, -, -, -, -, ⟨e0, e1, e2⟩⟩ := index_facts t
  have h0 : (i 0).val < 4 := (i 0).isLt
  have h1 : (i 1).val < 4096 := (i 1).isLt
  have h2 : (i 2).val < 2048 := (i 2).isLt
  show i ∈ ((View.whole main_v2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- The written blocks cover the result array. -/
theorem cover (i : S4x4096x2048.Idx) :
    ∃ t : Fin cfg0.N, (cfg0.win 5).flush t = true ∧ i ∈ ((cfg0.win 5).blk t).view.set := by
  have h0 : (i 0).val < 4 := (i 0).isLt
  have h1 : (i 1).val < 4096 := (i 1).isLt
  have ht : (i 0).val * 128 + (i 1).val / 512 * 16 + 15 < cfg0.N :=
    lt_of_lt_of_eq (by omega : (i 0).val * 128 + (i 1).val / 512 * 16 + 15 < 512) N_0.symm
  refine ⟨⟨_, ht⟩, (flush0_5 _).mpr ?_, mem_block _ i rfl⟩
  show ((i 0).val * 128 + (i 1).val / 512 * 16 + 15) % 16 = 15
  omega

/-- So the result array ends holding the layer function of the arrays the region found. -/
theorem final (c : Dev nD) : (dats m 0 c).arrAt 5 cfg0.N = found m c :=
  (dats m 0 c).arrAt_eq_of_cover 5 (found m c) (flushed_eq m c) cover

/-- The first weights as the region finds them are the argument: the change of format is the identity. -/
theorem first_weights_found (c : Dev nD) : W1 m c = m ((c : Thread nD τ).loc main_arg1) := by
  show (V m c main_v0 : S4x2048x8192.Idx → EReal) = _
  dsimp only [V, hostOps0]; after_results; rfl

/-- The second weights likewise. -/
theorem second_weights_found (c : Dev nD) : W2 m c = m ((c : Thread nD τ).loc main_arg3) := by
  show (V m c main_v1 : S4x8192x2048.Idx → EReal) = _
  dsimp only [V, hostOps0]; after_results; rfl

/-- The layer function of the five arguments. -/
abbrev result (c : Dev nD) : Buf (Elt Ideal) ((c : Thread nD τ).loc main_v2) :=
  Cert.Spec.ffn (m ((c : Thread nD τ).loc main_arg0)) (m ((c : Thread nD τ).loc main_arg1))
    (m ((c : Thread nD τ).loc main_arg2)) (m ((c : Thread nD τ).loc main_arg3)) (m ((c : Thread nD τ).loc main_arg4))

theorem found_eq (c : Dev nD) : found m c = result m c := by
  show Cert.Spec.ffn (X m c) (W1 m c) (B1 m c) (W2 m c) (B2 m c) = _
  rw [first_weights_found, second_weights_found]
  show Cert.Spec.ffn (V m c main_arg0) _ (V m c main_arg2) _ (V m c main_arg4) = _
  rw [V_main_arg0, V_main_arg2, V_main_arg4]

/-- Every weakly fair execution of the kernel's program terminates with the result array at the layer function of
    the arguments, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq m c)), (h c).2⟩)
    (Value.run_blocks m ρ)

end Cert.KernelIdeal.Result

end
-- ==== Proof.RefIsSpec.lean ====
import proofs.«128964_j2121713845122_2_alg».proof.Proof.Gen.ReferenceIdeal.Read
import proofs.«128964_j2121713845122_2_alg».proof.Proof.Spec

/-!
# The reference computes the layer function

The reference is two batched products with a bias added after each and `relu` in between. Read one operation at a
time at an index `(e, r, d)`, it is `(∑ h, relu (∑ j, x e r j * w1 e j h + b1 e 0 h) * w2 e h d) + b2 e 0 d`: the
layer function of the specification, with no rearrangement at all.
-/

noncomputable section

open scoped BigOperators
open Idealize.ShloMosaic Idealize.ShloMosaic.ValueIdx

namespace Cert.ReferenceIdeal.RefValue

open Cert.ReferenceIdeal Cert.ReferenceIdeal.Read

/-- The reference's result, as a function of its five arguments, is the layer function. -/
theorem result_eq (x0 : (⟨S4x4096x2048, .f32⟩ : BufTy).Contents (Elt Ideal)) (x1 : (⟨S4x2048x8192, .f32⟩ : BufTy).Contents (Elt Ideal)) (x2 : (⟨S4x1x8192, .f32⟩ : BufTy).Contents (Elt Ideal))
    (x3 : (⟨S4x8192x2048, .f32⟩ : BufTy).Contents (Elt Ideal)) (x4 : (⟨S4x1x2048, .f32⟩ : BufTy).Contents (Elt Ideal)) :
    val_main_v6 (F := Ideal) x0 x1 x2 x3 x4 = Cert.Spec.ffn x0 x1 x2 x3 x4 := by
  funext i
  obtain ⟨e, r, d, rfl⟩ : ∃ (e : Fin 4) (r : Fin 4096) (d : Fin 2048), i = ix3 e r d := ⟨i 0, i 1, i 2, eq_ix3 i⟩
  -- the operand indices of each operation, in coordinates
  have hidden_of_out : ∀ h : Fin 8192, lidx_main_v4 (ix3 e r d) h = ix3 e r h := fun h =>
    funext fun a => by match a with | ⟨0, _⟩ => rfl | ⟨1, _⟩ => rfl | ⟨2, _⟩ => rfl
  have w2_of_out : ∀ h : Fin 8192, ridx_main_v4 (ix3 e r d) h = ix3 e h d := fun h =>
    funext fun a => by match a with | ⟨0, _⟩ => rfl | ⟨1, _⟩ => rfl | ⟨2, _⟩ => rfl
  have b2_of_out : idx_main_v5 (ix3 e r d) = ix3 e (0 : Fin 1) d :=
    funext fun a => by match a with | ⟨0, _⟩ => rfl | ⟨1, _⟩ => rfl | ⟨2, _⟩ => rfl
  have x_of_hidden : ∀ (h : Fin 8192) (j : Fin 2048), lidx_main_v0 (ix3 e r h) j = ix3 e r j := fun h j =>
    funext fun a => by match a with | ⟨0, _⟩ => rfl | ⟨1, _⟩ => rfl | ⟨2, _⟩ => rfl
  have w1_of_hidden : ∀ (h : Fin 8192) (j : Fin 2048), ridx_main_v0 (ix3 e r h) j = ix3 e j h := fun h j =>
    funext fun a => by match a with | ⟨0, _⟩ => rfl | ⟨1, _⟩ => rfl | ⟨2, _⟩ => rfl
  have b1_of_hidden : ∀ h : Fin 8192, idx_main_v1 (ix3 e r h) = ix3 e (0 : Fin 1) h := fun h =>
    funext fun a => by match a with | ⟨0, _⟩ => rfl | ⟨1, _⟩ => rfl | ⟨2, _⟩ => rfl
  rw [val_main_v6_apply, val_main_v4_apply, val_main_v5_apply]
  simp only [hidden_of_out, w2_of_out, b2_of_out, val_main_v3_apply, val_main_v2_apply, val_main_v0_apply,
    val_main_v1_apply, val_main_call0_v0_apply, val_main_call0_cst_apply, x_of_hidden, w1_of_hidden, b1_of_hidden,
    Ideal.addf_def, Ideal.maximumf_def, Ideal.ofBits_def]
  rfl

end Cert.ReferenceIdeal.RefValue

end
-- ==== Proof.lean ====
/-
  A batched two-layer feed-forward network, four experts: for expert `e`, token row `r`, output column `d`,

    out e r d = (∑ h, relu (∑ j, x e r j * w1 e j h + b1 e 0 h) * w2 e h d) + b2 e 0 d.

  The reference computes this with two whole products. The kernel walks a grid of expert × row tile × hidden tile
  (4 · 8 · 16 points): over the sixteen hidden tiles of one row tile it keeps the row tile of `x` and a running sum of
  the second product, adding one hidden tile's 512 summands per point, and writes the sum plus `b2` to the result at the
  last of them. Over the extended reals every change of float format is the identity and addition is commutative and
  associative, so sixteen partial sums of 512 summands, added in order onto zero, are the one sum of 8192 summands: the two
  programs compute the same function, for all inputs (finiteness of the inputs is not needed).

  Modules: Spec (the function, and the regrouping of its sum by tiles); RefIsSpec (the reference is that function);
  Pieces, Payload, Blocks (the kernel's body: what a grid point leaves in its buffers, its arithmetic at an entry, where
  its blocks sit in the arrays); Running (the induction over the grid points); KernelValue (the result array). The three
  programs terminate without fault and keep their arguments by their generated runs; the idealization rewrote nothing.
-/
import proofs.«128964_j2121713845122_2_alg».proof.Defs
import proofs.«128964_j2121713845122_2_alg».proof.Proof.Gen.Kernel
import proofs.«128964_j2121713845122_2_alg».proof.Proof.Gen.Kernel.Frame
import proofs.«128964_j2121713845122_2_alg».proof.Proof.Gen.KernelIdeal
import proofs.«128964_j2121713845122_2_alg».proof.Proof.Gen.KernelIdeal.Frame
import proofs.«128964_j2121713845122_2_alg».proof.Proof.Gen.KernelIdeal.Value
import proofs.«128964_j2121713845122_2_alg».proof.Proof.Gen.ReferenceIdeal
import proofs.«128964_j2121713845122_2_alg».proof.Proof.Gen.ReferenceIdeal.Run
import proofs.«128964_j2121713845122_2_alg».proof.Proof.Gen.ReferenceIdeal.Read
import proofs.«128964_j2121713845122_2_alg».proof.Proof.Gen.Pre_finite_inputs
import proofs.«128964_j2121713845122_2_alg».proof.Proof.KernelValue
import proofs.«128964_j2121713845122_2_alg».proof.Proof.RefIsSpec
import Idealize.ShloMosaic.Adequacy
import Idealize.ShloMosaic.Init

noncomputable section

namespace Cert.Proof

open Idealize.ShloMosaic Idealize.SL.Sem

/-- The kernel as printed runs to the end without fault and keeps its arguments. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- Both programs end with the layer function of their arguments, which agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
